-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x1 : Shape := ⟨2, ![131072, 1]⟩
abbrev S131072x5 : Shape := ⟨2, ![131072, 5]⟩
abbrev S148x5 : Shape := ⟨2, ![148, 5]⟩
abbrev S148 : Shape := ⟨1, ![148]⟩
abbrev S148x6 : Shape := ⟨2, ![148, 6]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S131072x5 : S_.BroadcastsInDim S131072x5 (![] : Fin 0 → Fin S131072x5.rank)
  reducesTo_S131072x5_S_d0_1 : S131072x5.ReducesTo [0, 1] S_
  bcast_S_S148x5 : S_.BroadcastsInDim S148x5 (![] : Fin 0 → Fin S148x5.rank)
  reducesTo_S148x5_S_d0_1 : S148x5.ReducesTo [0, 1] S_
  bcast_S_S148 : S_.BroadcastsInDim S148 (![] : Fin 0 → Fin S148.rank)
  reducesTo_S148_S_d0 : S148.ReducesTo [0] S_
  bcast_S_S148x6 : S_.BroadcastsInDim S148x6 (![] : Fin 0 → Fin S148x6.rank)
  reducesTo_S148x6_S_d0_1 : S148x6.ReducesTo [0, 1] S_

variable [Facts]

def fn_part1 {F : FTy → Type} [FloatOps F] (main_arg4 : FVec F S148x6 .f32) (main_arg5 : FVec F S148 .f32) (main_v13 : IVec S_ 1) (main_v16 : IVec S148 1) : IVec S_ 1 :=
  let main_c_5 : IVec S_ 1 := constantI S_ 1 1#1
  let main_v17 : IVec S_ 1 := (fun x v => Host.reduce IntOp.andi x v reducesTo_S148_S_d0 h_S_) main_v16 main_c_5
  let main_v18 : IVec S_ 1 := andi main_v13 main_v17
  let main_v19 : FVec F S148x6 .f32 := Host.absf main_arg4
  let main_cst_6 : FVec F S_ .f32 := constant S_ .f32 0x7F800000#32
  let main_v20 : FVec F S148x6 .f32 := broadcastInDim S148x6 ![] bcast_S_S148x6 main_cst_6
  let main_v21 : IVec S148x6 1 := cmpf .olt main_v19 main_v20
  let main_c_7 : IVec S_ 1 := constantI S_ 1 1#1
  let main_v22 : IVec S_ 1 := (fun x v => Host.reduce IntOp.andi x v reducesTo_S148x6_S_d0_1 h_S_) main_v21 main_c_7
  let main_v23 : IVec S_ 1 := andi main_v18 main_v22
  let main_v24 : FVec F S148 .f32 := Host.absf main_arg5
  let main_cst_8 : FVec F S_ .f32 := constant S_ .f32 0x7F800000#32
  let main_v25 : FVec F S148 .f32 := broadcastInDim S148 ![] bcast_S_S148 main_cst_8
  let main_v26 : IVec S148 1 := cmpf .olt main_v24 main_v25
  let main_c_9 : IVec S_ 1 := constantI S_ 1 1#1
  let main_v27 : IVec S_ 1 := (fun x v => Host.reduce IntOp.andi x v reducesTo_S148_S_d0 h_S_) main_v26 main_c_9
  let main_v28 : IVec S_ 1 := andi main_v23 main_v27
  main_v28

def fn {F : FTy → Type} [FloatOps F] (main_arg0 : FVec F S131072x1 .f32) (main_arg1 : FVec F S131072x5 .f32) (main_arg2 : FVec F S148x5 .f32) (main_arg3 : FVec F S148 .f32) (main_arg4 : FVec F S148x6 .f32) (main_arg5 : FVec F S148 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S131072x5 .f32 := Host.absf main_arg1
  let main_cst_0 : FVec F S_ .f32 := constant S_ .f32 0x7F800000#32
  let main_v5 : FVec F S131072x5 .f32 := broadcastInDim S131072x5 ![] bcast_S_S131072x5 main_cst_0
  let main_v6 : IVec S131072x5 1 := cmpf .olt main_v4 main_v5
  let main_c_1 : IVec S_ 1 := constantI S_ 1 1#1
  let main_v7 : IVec S_ 1 := (fun x v => Host.reduce IntOp.andi x v reducesTo_S131072x5_S_d0_1 h_S_) main_v6 main_c_1
  let main_v8 : IVec S_ 1 := andi main_v3 main_v7
  let main_v9 : FVec F S148x5 .f32 := Host.absf main_arg2
  let main_cst_2 : FVec F S_ .f32 := constant S_ .f32 0x7F800000#32
  let main_v10 : FVec F S148x5 .f32 := broadcastInDim S148x5 ![] bcast_S_S148x5 main_cst_2
  let main_v11 : IVec S148x5 1 := cmpf .olt main_v9 main_v10
  let main_c_3 : IVec S_ 1 := constantI S_ 1 1#1
  let main_v12 : IVec S_ 1 := (fun x v => Host.reduce IntOp.andi x v reducesTo_S148x5_S_d0_1 h_S_) main_v11 main_c_3
  let main_v13 : IVec S_ 1 := andi main_v8 main_v12
  let main_v14 : FVec F S148 .f32 := Host.absf main_arg3
  let main_cst_4 : FVec F S_ .f32 := constant S_ .f32 0x7F800000#32
  let main_v15 : FVec F S148 .f32 := broadcastInDim S148 ![] bcast_S_S148 main_cst_4
  let main_v16 : IVec S148 1 := cmpf .olt main_v14 main_v15
  fn_part1 (F := F) main_arg4 main_arg5 main_v13 main_v16
-- ==== Kernel.lean ====
abbrev S131072x1 : Shape := ⟨2, ![131072, 1]⟩
abbrev S131072x5 : Shape := ⟨2, ![131072, 5]⟩
abbrev S148x5 : Shape := ⟨2, ![148, 5]⟩
abbrev S148 : Shape := ⟨1, ![148]⟩
abbrev S148x6 : Shape := ⟨2, ![148, 6]⟩
abbrev S1x131072 : Shape := ⟨2, ![1, 131072]⟩
abbrev S5x131072 : Shape := ⟨2, ![5, 131072]⟩
abbrev S6x131072 : Shape := ⟨2, ![6, 131072]⟩
abbrev S148x1 : Shape := ⟨2, ![148, 1]⟩
abbrev S148x131072 : Shape := ⟨2, ![148, 131072]⟩
abbrev S5x8192 : Shape := ⟨2, ![5, 8192]⟩
abbrev S6x8192 : Shape := ⟨2, ![6, 8192]⟩
abbrev S148x8192 : Shape := ⟨2, ![148, 8192]⟩

abbrev nBuf : Space → Nat
  | .hbm => 13
  | .vmem => 12
  | .smem => 0
  | _ => 0

abbrev bufTy : (tb : Table) → Fin (tcTables nBuf tb) → BufTy
  | .hbm, ⟨0, _⟩ => ⟨S131072x1, .f32⟩
  | .hbm, ⟨1, _⟩ => ⟨S131072x5, .f32⟩
  | .hbm, ⟨2, _⟩ => ⟨S148x5, .f32⟩
  | .hbm, ⟨3, _⟩ => ⟨S148, .f32⟩
  | .hbm, ⟨4, _⟩ => ⟨S148x6, .f32⟩
  | .hbm, ⟨5, _⟩ => ⟨S148, .f32⟩
  | .hbm, ⟨6, _⟩ => ⟨S1x131072, .f32⟩
  | .hbm, ⟨7, _⟩ => ⟨S5x131072, .f32⟩
  | .hbm, ⟨8, _⟩ => ⟨S6x131072, .f32⟩
  | .hbm, ⟨9, _⟩ => ⟨S148x1, .f32⟩
  | .hbm, ⟨10, _⟩ => ⟨S148x1, .f32⟩
  | .hbm, ⟨11, _⟩ => ⟨S148x131072, .f32⟩
  | .hbm, ⟨12, _⟩ => ⟨S148x131072, .f32⟩
  | .local _ .vmem, ⟨0, _⟩ => ⟨S5x8192, .f32⟩
  | .local _ .vmem, ⟨1, _⟩ => ⟨S5x8192, .f32⟩
  | .local _ .vmem, ⟨2, _⟩ => ⟨S6x8192, .f32⟩
  | .local _ .vmem, ⟨3, _⟩ => ⟨S6x8192, .f32⟩
  | .local _ .vmem, ⟨4, _⟩ => ⟨S148x5, .f32⟩
  | .local _ .vmem, ⟨5, _⟩ => ⟨S148x1, .f32⟩
  | .local _ .vmem, ⟨6, _⟩ => ⟨S148x6, .f32⟩
  | .local _ .vmem, ⟨7, _⟩ => ⟨S148x1, .f32⟩
  | .local _ .vmem, ⟨8, _⟩ => ⟨S148x8192, .f32⟩
  | .local _ .vmem, ⟨9, _⟩ => ⟨S148x8192, .f32⟩
  | .local _ .vmem, ⟨10, _⟩ => ⟨S148x8192, .f32⟩
  | .local _ .vmem, ⟨11, _⟩ => ⟨S148x8192, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S148x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S148x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S148x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S148x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S148x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S148x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S131072x1_S1x131072_1_0 : S131072x1.Transposes [1, 0] S1x131072
  transposes_S131072x5_S5x131072_1_0 : S131072x5.Transposes [1, 0] S5x131072
  concatenates_S1x131072_S5x131072_S6x131072_d0 : Shape.Concatenates [S1x131072, S5x131072] S6x131072 0
  shapeCasts_S148_S148x1 : S148.ShapeCasts S148x1
  inb_S5x8192_S5x8192_0_0 : ∀ a, (![0, 0] : Fin 2 → Nat) a + S5x8192.size a ≤ S5x8192.size a
  h_S5x8192 : 0 < S5x8192.numel
  shapeCasts_S5x8192_S5x8192 : S5x8192.ShapeCasts S5x8192
  bitsLt_bf16_f32 : FTy.bits .bf16 < FTy.bits .f32
  inb_S6x8192_S6x8192_0_0 : ∀ a, (![0, 0] : Fin 2 → Nat) a + S6x8192.size a ≤ S6x8192.size a
  h_S6x8192 : 0 < S6x8192.numel
  shapeCasts_S6x8192_S6x8192 : S6x8192.ShapeCasts S6x8192
  inb_S148x5_S148x5_0_0 : ∀ a, (![0, 0] : Fin 2 → Nat) a + S148x5.size a ≤ S148x5.size a
  h_S148x5 : 0 < S148x5.numel
  inb_S148x6_S148x6_0_0 : ∀ a, (![0, 0] : Fin 2 → Nat) a + S148x6.size a ≤ S148x6.size a
  h_S148x6 : 0 < S148x6.numel
  inb_S148x1_S148x1_0_0 : ∀ a, (![0, 0] : Fin 2 → Nat) a + S148x1.size a ≤ S148x1.size a
  h_S148x1 : 0 < S148x1.numel
  shapeCasts_S148x1_S148x1 : S148x1.ShapeCasts S148x1
  broadcasts_S148x1_S148x8192 : S148x1.Broadcasts S148x8192
  inb_S148x8192_S148x8192_0_0 : ∀ a, (![0, 0] : Fin 2 → Nat) a + S148x8192.size a ≤ S148x8192.size a
  h_S148x8192 : 0 < S148x8192.numel
  dot_S148x5_S5x8192_S148x8192_1_0_0_1_n_n_wf : DotDims.WF S148x5 S5x8192 S148x8192 [1] [0] [0] [1] [] []
  dot_S148x6_S6x8192_S148x8192_1_0_0_1_n_n_wf : DotDims.WF S148x6 S6x8192 S148x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x8192.size a ≤ S5x131072.size a
  hwx0_0 : ∀ i : grid0.Coords, EltTy.bits .f32 = 32 ∨ (Rect.block (s := S5x131072) S5x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x8192.size a ≤ S6x131072.size a
  hwx0_1 : ∀ i : grid0.Coords, EltTy.bits .f32 = 32 ∨ (Rect.block (s := S6x131072) S6x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S148x5.size a ≤ S148x5.size a
  hwx0_2 : ∀ i : grid0.Coords, EltTy.bits .f32 = 32 ∨ (Rect.block (s := S148x5) S148x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S148x1.size a ≤ S148x1.size a
  hwx0_3 : ∀ i : grid0.Coords, EltTy.bits .f32 = 32 ∨ (Rect.block (s := S148x1) S148x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S148x6.size a ≤ S148x6.size a
  hwx0_4 : ∀ i : grid0.Coords, EltTy.bits .f32 = 32 ∨ (Rect.block (s := S148x6) S148x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S148x1.size a ≤ S148x1.size a
  hwx0_5 : ∀ i : grid0.Coords, EltTy.bits .f32 = 32 ∨ (Rect.block (s := S148x1) S148x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S148x8192.size a ≤ S148x131072.size a
  hwx0_6 : ∀ i : grid0.Coords, EltTy.bits .f32 = 32 ∨ (Rect.block (s := S148x131072) S148x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S148x8192.size a ≤ S148x131072.size a
  hwx0_7 : ∀ i : grid0.Coords, EltTy.bits .f32 = 32 ∨ (Rect.block (s := S148x131072) S148x8192.size (cc0_transform_7 i) (hinb0_7 i)).WholeWords (EltTy.packing .f32)

variable [Facts₀]

def dot_S148x5_S5x8192_S148x8192_1_0_0_1_n_n : DotDims S148x5 S5x8192 S148x8192 where
  lhsContracting := [1]
  rhsContracting := [0]
  lhsNonContracting := [0]
  rhsNonContracting := [1]
  lhsBatch := []
  rhsBatch := []
  wf := dot_S148x5_S5x8192_S148x8192_1_0_0_1_n_n_wf
def dot_S148x6_S6x8192_S148x8192_1_0_0_1_n_n : DotDims S148x6 S6x8192 S148x8192 where
  lhsContracting := [1]
  rhsContracting := [0]
  lhsNonContracting := [0]
  rhsNonContracting := [1]
  lhsBatch := []
  rhsBatch := []
  wf := dot_S148x6_S6x8192_S148x8192_1_0_0_1_n_n_wf

abbrev win0_0 : Pipeline.Window sig grid0 :=
  Pipeline.Window.ofSpec (Memref.whole main_v1) S5x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S6x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S148x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S148x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S148x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S148x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S148x8192.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S148x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x1 : Shape := ⟨2, ![131072, 1]⟩
abbrev S131072x5 : Shape := ⟨2, ![131072, 5]⟩
abbrev S148x5 : Shape := ⟨2, ![148, 5]⟩
abbrev S148 : Shape := ⟨1, ![148]⟩
abbrev S148x6 : Shape := ⟨2, ![148, 6]⟩
abbrev S131072x6 : Shape := ⟨2, ![131072, 6]⟩
abbrev S148x131072 : Shape := ⟨2, ![148, 131072]⟩
abbrev S148x1 : Shape := ⟨2, ![148, 1]⟩

abbrev nBuf : Space → Nat
  | .hbm => 15
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S131072x5, .f32⟩
  | .hbm, ⟨2, _⟩ => ⟨S148x5, .f32⟩
  | .hbm, ⟨3, _⟩ => ⟨S148, .f32⟩
  | .hbm, ⟨4, _⟩ => ⟨S148x6, .f32⟩
  | .hbm, ⟨5, _⟩ => ⟨S148, .f32⟩
  | .hbm, ⟨6, _⟩ => ⟨S131072x6, .f32⟩
  | .hbm, ⟨7, _⟩ => ⟨S148x131072, .f32⟩
  | .hbm, ⟨8, _⟩ => ⟨S148x1, .f32⟩
  | .hbm, ⟨9, _⟩ => ⟨S148x131072, .f32⟩
  | .hbm, ⟨10, _⟩ => ⟨S148x131072, .f32⟩
  | .hbm, ⟨11, _⟩ => ⟨S148x131072, .f32⟩
  | .hbm, ⟨12, _⟩ => ⟨S148x1, .f32⟩
  | .hbm, ⟨13, _⟩ => ⟨S148x131072, .f32⟩
  | .hbm, ⟨14, _⟩ => ⟨S148x131072, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  concatenates_S131072x1_S131072x5_S131072x6_d1 : Shape.Concatenates [S131072x1, S131072x5] S131072x6 1
  bcast_S148_S148x1_0 : S148.BroadcastsInDim S148x1 (![0] : Fin 1 → Fin S148x1.rank)
  bcast_S148x1_S148x131072_0_1 : S148x1.BroadcastsInDim S148x131072 (![0, 1] : Fin 2 → Fin S148x131072.rank)
  dot_S148x5_S131072x5_S148x131072_1_1_0_0_n_n_wf : DotDims.WF S148x5 S131072x5 S148x131072 [1] [1] [0] [0] [] []
  dot_S148x6_S131072x6_S148x131072_1_1_0_0_n_n_wf : DotDims.WF S148x6 S131072x6 S148x131072 [1] [1] [0] [0] [] []

variable [Facts₀]

def dot_S148x5_S131072x5_S148x131072_1_1_0_0_n_n : DotDims S148x5 S131072x5 S148x131072 where
  lhsContracting := [1]
  rhsContracting := [1]
  lhsNonContracting := [0]
  rhsNonContracting := [0]
  lhsBatch := []
  rhsBatch := []
  wf := dot_S148x5_S131072x5_S148x131072_1_1_0_0_n_n_wf
def dot_S148x6_S131072x6_S148x131072_1_1_0_0_n_n : DotDims S148x6 S131072x6 S148x131072 where
  lhsContracting := [1]
  rhsContracting := [1]
  lhsNonContracting := [0]
  rhsNonContracting := [0]
  lhsBatch := []
  rhsBatch := []
  wf := dot_S148x6_S131072x6_S148x131072_1_1_0_0_n_n_wf

class Facts : Prop extends Facts₀ where

variable [Facts]
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.KernelPayloads.lean ====
/-
  What the kernel body stores, read at an index.

  Each of the body's two stores holds a matrix product into a zero accumulator plus a bias column broadcast along
  the lanes: entry `(p, q)` of the block is the sum over the contracted axis of weight `(p, k)` times the sample
  block's entry `(k, q)`, plus the bias column's entry `(p, 0)`.  Rounding the operands to a narrower format is
  the identity on the extended reals, and a cast to the same shape is the identity.
-/
import proofs.«153709_j72249939853425_2_alg».proof.Proof.Gen.KernelIdeal.Skeleton
import proofs.«153709_j72249939853425_2_alg».proof.Proof.LibColumnLayout
import Idealize.ShloMosaic.Lib.ValueIdx
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The 5-wide product -/

/-- The left operand's row is the output's row. -/
theorem lhs5_row (i : S148x8192.Idx) (q : dot_S148x5_S5x8192_S148x8192_1_0_0_1_n_n.contr.Idx) :
    (dot_S148x5_S5x8192_S148x8192_1_0_0_1_n_n.lhsIdx i q 0).val = (i 0).val := by
  unfold DotDims.lhsIdx
  rw [dif_neg (show ¬(0 : Fin S148x5.rank) ∈ dot_S148x5_S5x8192_S148x8192_1_0_0_1_n_n.lhsBatch by decide), dif_pos (show (0 : Fin S148x5.rank) ∈ dot_S148x5_S5x8192_S148x8192_1_0_0_1_n_n.lhsNonContracting by decide)]
  rfl

/-- The left operand's column is the contracted position. -/
theorem lhs5_col (i : S148x8192.Idx) (q : dot_S148x5_S5x8192_S148x8192_1_0_0_1_n_n.contr.Idx) :
    (dot_S148x5_S5x8192_S148x8192_1_0_0_1_n_n.lhsIdx i q 1).val = (q ⟨0, by decide⟩).val :=
  dot_S148x5_S5x8192_S148x8192_1_0_0_1_n_n.lhsIdx_val_of_single rfl i q

/-- The right operand's row is the contracted position. -/
theorem rhs5_row (i : S148x8192.Idx) (q : dot_S148x5_S5x8192_S148x8192_1_0_0_1_n_n.contr.Idx) :
    (dot_S148x5_S5x8192_S148x8192_1_0_0_1_n_n.rhsIdx i q 0).val = (q ⟨0, by decide⟩).val :=
  dot_S148x5_S5x8192_S148x8192_1_0_0_1_n_n.rhsIdx_val_of_single rfl i q

/-- The right operand's column is the output's column. -/
theorem rhs5_col (i : S148x8192.Idx) (q : dot_S148x5_S5x8192_S148x8192_1_0_0_1_n_n.contr.Idx) :
    (dot_S148x5_S5x8192_S148x8192_1_0_0_1_n_n.rhsIdx i q 1).val = (i 1).val := by
  unfold DotDims.rhsIdx
  rw [dif_neg (show ¬(1 : Fin S5x8192.rank) ∈ dot_S148x5_S5x8192_S148x8192_1_0_0_1_n_n.rhsBatch by decide), dif_pos (show (1 : Fin S5x8192.rank) ∈ dot_S148x5_S5x8192_S148x8192_1_0_0_1_n_n.rhsNonContracting by decide)]
  rfl

/-- A [148, 5] by [5, 8192] product into a zero accumulator, at `(p, q)`: row `p` of the left operand against column
    `q` of the right. -/
theorem matmul5_apply (l : FVec Ideal S148x5 .bf16) (r : FVec Ideal S5x8192 .bf16) (p : Fin 148) (q : Fin 8192) :
    matmul dot_S148x5_S5x8192_S148x8192_1_0_0_1_n_n none l r (constant (F := Ideal) S148x8192 .f32 0x00000000#32) (ix2 p q)
      = ∑ k : Fin 5, l (ix2 p k) * r (ix2 k q) := by
  simp only [matmul]
  rw [Ideal.matmul_constant_zero_apply, ← Equiv.sum_comp (contrEquiv1 dot_S148x5_S5x8192_S148x8192_1_0_0_1_n_n 5 rfl rfl).symm]
  refine Finset.sum_congr rfl fun k _ => ?_
  have hk := contrEquiv1_symm_val dot_S148x5_S5x8192_S148x8192_1_0_0_1_n_n 5 rfl rfl k
  have el : dot_S148x5_S5x8192_S148x8192_1_0_0_1_n_n.lhsIdx (ix2 p q) ((contrEquiv1 dot_S148x5_S5x8192_S148x8192_1_0_0_1_n_n 5 rfl rfl).symm k) = ix2 p k := funext fun a => Fin.ext (by
    match a with
    | ⟨0, _⟩ => exact lhs5_row _ _
    | ⟨1, _⟩ => exact (lhs5_col _ _).trans hk)
  have er : dot_S148x5_S5x8192_S148x8192_1_0_0_1_n_n.rhsIdx (ix2 p q) ((contrEquiv1 dot_S148x5_S5x8192_S148x8192_1_0_0_1_n_n 5 rfl rfl).symm k) = ix2 k q := funext fun a => Fin.ext (by
    match a with
    | ⟨0, _⟩ => exact (rhs5_row _ _).trans hk
    | ⟨1, _⟩ => exact rhs5_col _ _)
  rw [el, er]

/-! ## The 6-wide product -/

/-- The left operand's row is the output's row. -/
theorem lhs6_row (i : S148x8192.Idx) (q : dot_S148x6_S6x8192_S148x8192_1_0_0_1_n_n.contr.Idx) :
    (dot_S148x6_S6x8192_S148x8192_1_0_0_1_n_n.lhsIdx i q 0).val = (i 0).val := by
  unfold DotDims.lhsIdx
  rw [dif_neg (show ¬(0 : Fin S148x6.rank) ∈ dot_S148x6_S6x8192_S148x8192_1_0_0_1_n_n.lhsBatch by decide), dif_pos (show (0 : Fin S148x6.rank) ∈ dot_S148x6_S6x8192_S148x8192_1_0_0_1_n_n.lhsNonContracting by decide)]
  rfl

/-- The left operand's column is the contracted position. -/
theorem lhs6_col (i : S148x8192.Idx) (q : dot_S148x6_S6x8192_S148x8192_1_0_0_1_n_n.contr.Idx) :
    (dot_S148x6_S6x8192_S148x8192_1_0_0_1_n_n.lhsIdx i q 1).val = (q ⟨0, by decide⟩).val :=
  dot_S148x6_S6x8192_S148x8192_1_0_0_1_n_n.lhsIdx_val_of_single rfl i q

/-- The right operand's row is the contracted position. -/
theorem rhs6_row (i : S148x8192.Idx) (q : dot_S148x6_S6x8192_S148x8192_1_0_0_1_n_n.contr.Idx) :
    (dot_S148x6_S6x8192_S148x8192_1_0_0_1_n_n.rhsIdx i q 0).val = (q ⟨0, by decide⟩).val :=
  dot_S148x6_S6x8192_S148x8192_1_0_0_1_n_n.rhsIdx_val_of_single rfl i q

/-- The right operand's column is the output's column. -/
theorem rhs6_col (i : S148x8192.Idx) (q : dot_S148x6_S6x8192_S148x8192_1_0_0_1_n_n.contr.Idx) :
    (dot_S148x6_S6x8192_S148x8192_1_0_0_1_n_n.rhsIdx i q 1).val = (i 1).val := by
  unfold DotDims.rhsIdx
  rw [dif_neg (show ¬(1 : Fin S6x8192.rank) ∈ dot_S148x6_S6x8192_S148x8192_1_0_0_1_n_n.rhsBatch by decide), dif_pos (show (1 : Fin S6x8192.rank) ∈ dot_S148x6_S6x8192_S148x8192_1_0_0_1_n_n.rhsNonContracting by decide)]
  rfl

/-- A [148, 6] by [6, 8192] product into a zero accumulator, at `(p, q)`: row `p` of the left operand against column
    `q` of the right. -/
theorem matmul6_apply (l : FVec Ideal S148x6 .bf16) (r : FVec Ideal S6x8192 .bf16) (p : Fin 148) (q : Fin 8192) :
    matmul dot_S148x6_S6x8192_S148x8192_1_0_0_1_n_n none l r (constant (F := Ideal) S148x8192 .f32 0x00000000#32) (ix2 p q)
      = ∑ k : Fin 6, l (ix2 p k) * r (ix2 k q) := by
  simp only [matmul]
  rw [Ideal.matmul_constant_zero_apply, ← Equiv.sum_comp (contrEquiv1 dot_S148x6_S6x8192_S148x8192_1_0_0_1_n_n 6 rfl rfl).symm]
  refine Finset.sum_congr rfl fun k _ => ?_
  have hk := contrEquiv1_symm_val dot_S148x6_S6x8192_S148x8192_1_0_0_1_n_n 6 rfl rfl k
  have el : dot_S148x6_S6x8192_S148x8192_1_0_0_1_n_n.lhsIdx (ix2 p q) ((contrEquiv1 dot_S148x6_S6x8192_S148x8192_1_0_0_1_n_n 6 rfl rfl).symm k) = ix2 p k := funext fun a => Fin.ext (by
    match a with
    | ⟨0, _⟩ => exact lhs6_row _ _
    | ⟨1, _⟩ => exact (lhs6_col _ _).trans hk)
  have er : dot_S148x6_S6x8192_S148x8192_1_0_0_1_n_n.rhsIdx (ix2 p q) ((contrEquiv1 dot_S148x6_S6x8192_S148x8192_1_0_0_1_n_n 6 rfl rfl).symm k) = ix2 k q := funext fun a => Fin.ext (by
    match a with
    | ⟨0, _⟩ => exact (rhs6_row _ _).trans hk
    | ⟨1, _⟩ => exact rhs6_col _ _)
  rw [el, er]

/-! ## The two stores -/

/-- The first store at `(p, q)`: weights' row `p` against the covariate block's column `q`, plus the bias column at `p`. -/
theorem pay1_apply (x0 : Vec Ideal S5x8192 .f32) (x2 : Vec Ideal S148x5 .f32) (x3 : Vec Ideal S148x1 .f32)
    (p : Fin 148) (q : Fin 8192) :
    k0_pay1 (F := Ideal) x0 x2 x3 (ix2 p q) = (∑ k : Fin 5, x2 (ix2 p k) * x0 (ix2 k q)) + x3 (ix2 p (0 : Fin 1)) := by
  unfold k0_pay1
  rw [shapeCast_self, shapeCast_self]
  refine (addf_apply _ _ _).trans ?_
  rw [matmul5_apply, PhysLoss.broadcastTo_a1_ab_apply]
  rfl

/-- The second store at `(p, q)`: weights' row `p` against the joined block's column `q`, plus the bias column at `p`. -/
theorem pay2_apply (x1 : Vec Ideal S6x8192 .f32) (x4 : Vec Ideal S148x6 .f32) (x5 : Vec Ideal S148x1 .f32)
    (p : Fin 148) (q : Fin 8192) :
    k0_pay2 (F := Ideal) x1 x4 x5 (ix2 p q) = (∑ k : Fin 6, x4 (ix2 p k) * x1 (ix2 k q)) + x5 (ix2 p (0 : Fin 1)) := by
  unfold k0_pay2
  rw [shapeCast_self, shapeCast_self]
  refine (addf_apply _ _ _).trans ?_
  rw [matmul6_apply, PhysLoss.broadcastTo_a1_ab_apply]
  rfl

end Cert.KernelIdeal.Payloads

end
-- ==== Proof.RoiMaps.lean ====
/-
  The mathematics of the two programs, away from either of them.

  A stack of 148 affine maps is applied to each of 131072 samples.  The RESTRICTED stack reads a sample's five
  covariates `Z`; the FULL stack reads the sample's joined row `[X | Z]`: the one exposure column, then the five
  covariates.  Entry `(r, n)` of an output is map `r` applied to sample `n`: the sum over the contracted axis of
  weight times entry, plus the map's bias.  On the extended reals this is a finite sum of products, and nothing
  below uses more of them than that `+` and `*` are what they are: no law is needed that fails at an infinity.

  The same stack is also written over operands laid out the way a column-tiled evaluation wants them
  (`byColumns`): the sample matrix stored column by column, `[K, N]`, and the bias as a column `[148, 1]`.

  Each function is given first at explicit coordinates `(r, n)` and then as a function of the array index.
-/
import Idealize.ShloMosaic.PureOps.Ideal
import Idealize.ShloMosaic.Lib.ValueIdx

noncomputable section

namespace Cert.RoiMaps

open Idealize.ShloMosaic Idealize.ShloMosaic.ValueIdx

/-- Map `r` of the restricted stack at sample `n`: its five weights against the sample's five covariates, plus
    its bias. -/
def restrictedAt (Z : (⟨2, ![131072, 5]⟩ : Shape).Idx → EReal) (Wr : (⟨2, ![148, 5]⟩ : Shape).Idx → EReal)
    (br : (⟨1, ![148]⟩ : Shape).Idx → EReal) (r : Fin 148) (n : Fin 131072) : EReal :=
  (∑ k : Fin 5, Wr (ix2 r k) * Z (ix2 n k)) + br (ix1 r)

/-- The restricted stack's output array. -/
def restricted (Z : (⟨2, ![131072, 5]⟩ : Shape).Idx → EReal) (Wr : (⟨2, ![148, 5]⟩ : Shape).Idx → EReal)
    (br : (⟨1, ![148]⟩ : Shape).Idx → EReal) : (⟨2, ![148, 131072]⟩ : Shape).Idx → EReal :=
  fun i => restrictedAt Z Wr br (i 0) (i 1)

/-- Entry `d` of sample `n`'s joined row `[X | Z]`: the exposure for `d = 0`, covariate `d - 1` after it. -/
def joined (X : (⟨2, ![131072, 1]⟩ : Shape).Idx → EReal) (Z : (⟨2, ![131072, 5]⟩ : Shape).Idx → EReal)
    (n : Fin 131072) (d : Fin 6) : EReal :=
  if h : d.val < 1 then X (ix2 n ⟨d.val, h⟩) else Z (ix2 n ⟨d.val - 1, by omega⟩)

/-- Map `r` of the full stack at sample `n`: its six weights against the sample's joined row, plus its bias. -/
def fullAt (X : (⟨2, ![131072, 1]⟩ : Shape).Idx → EReal) (Z : (⟨2, ![131072, 5]⟩ : Shape).Idx → EReal)
    (Wf : (⟨2, ![148, 6]⟩ : Shape).Idx → EReal) (bf : (⟨1, ![148]⟩ : Shape).Idx → EReal) (r : Fin 148) (n : Fin 131072) : EReal :=
  (∑ d : Fin 6, Wf (ix2 r d) * joined X Z n d) + bf (ix1 r)

/-- The full stack's output array. -/
def full (X : (⟨2, ![131072, 1]⟩ : Shape).Idx → EReal) (Z : (⟨2, ![131072, 5]⟩ : Shape).Idx → EReal)
    (Wf : (⟨2, ![148, 6]⟩ : Shape).Idx → EReal) (bf : (⟨1, ![148]⟩ : Shape).Idx → EReal) :
    (⟨2, ![148, 131072]⟩ : Shape).Idx → EReal :=
  fun i => fullAt X Z Wf bf (i 0) (i 1)

/-- Map `r` of a stack of `K` weights each at sample `n`, over a sample matrix stored column by column (`A (k, n)` is
    entry `k` of sample `n`) and a bias stored as a column. -/
def byColumnsAt {K : ℕ} (W : (⟨2, ![148, K]⟩ : Shape).Idx → EReal) (A : (⟨2, ![K, 131072]⟩ : Shape).Idx → EReal)
    (b : (⟨2, ![148, 1]⟩ : Shape).Idx → EReal) (r : Fin 148) (n : Fin 131072) : EReal :=
  (∑ k : Fin K, W (ix2 r k) * A (ix2 k n)) + b (ix2 r (0 : Fin 1))

/-- The column-stored stack's output array. -/
def byColumns {K : ℕ} (W : (⟨2, ![148, K]⟩ : Shape).Idx → EReal) (A : (⟨2, ![K, 131072]⟩ : Shape).Idx → EReal)
    (b : (⟨2, ![148, 1]⟩ : Shape).Idx → EReal) : (⟨2, ![148, 131072]⟩ : Shape).Idx → EReal :=
  fun i => byColumnsAt W A b (i 0) (i 1)

/-- With the covariates transposed and the bias cast to a column, the column-stored stack is the restricted one. -/
theorem byColumns_restricted (Z : (⟨2, ![131072, 5]⟩ : Shape).Idx → EReal) (Wr : (⟨2, ![148, 5]⟩ : Shape).Idx → EReal)
    (br : (⟨1, ![148]⟩ : Shape).Idx → EReal) (A : (⟨2, ![5, 131072]⟩ : Shape).Idx → EReal)
    (b : (⟨2, ![148, 1]⟩ : Shape).Idx → EReal)
    (hA : ∀ (k : Fin 5) (n : Fin 131072), A (ix2 k n) = Z (ix2 n k))
    (hb : ∀ r : Fin 148, b (ix2 r (0 : Fin 1)) = br (ix1 r)) :
    byColumns Wr A b = restricted Z Wr br := by
  have h : ∀ (r : Fin 148) (n : Fin 131072), byColumnsAt Wr A b r n = restrictedAt Z Wr br r n := fun r n => by
    unfold byColumnsAt restrictedAt
    rw [hb]
    exact congrArg (· + br (ix1 r)) (Finset.sum_congr rfl fun k _ => by rw [hA])
  exact funext fun i => h (i 0) (i 1)

/-- With the joined rows stored column by column and the bias cast to a column, the column-stored stack is the
    full one. -/
theorem byColumns_full (X : (⟨2, ![131072, 1]⟩ : Shape).Idx → EReal) (Z : (⟨2, ![131072, 5]⟩ : Shape).Idx → EReal)
    (Wf : (⟨2, ![148, 6]⟩ : Shape).Idx → EReal) (bf : (⟨1, ![148]⟩ : Shape).Idx → EReal)
    (A : (⟨2, ![6, 131072]⟩ : Shape).Idx → EReal) (b : (⟨2, ![148, 1]⟩ : Shape).Idx → EReal)
    (hA : ∀ (d : Fin 6) (n : Fin 131072), A (ix2 d n) = joined X Z n d)
    (hb : ∀ r : Fin 148, b (ix2 r (0 : Fin 1)) = bf (ix1 r)) :
    byColumns Wf A b = full X Z Wf bf := by
  have h : ∀ (r : Fin 148) (n : Fin 131072), byColumnsAt Wf A b r n = fullAt X Z Wf bf r n := fun r n => by
    unfold byColumnsAt fullAt
    rw [hb]
    exact congrArg (· + bf (ix1 r)) (Finset.sum_congr rfl fun d _ => by rw [hA])
  exact funext fun i => h (i 0) (i 1)

end Cert.RoiMaps

end
-- ==== Proof.KernelBlocks.lean ====
/-
  From the blocks the grid points write to the two output arrays.

  The grid has 16 points; point `t` stages columns `8192 t … 8192 t + 8191` of the two sample arrays (the transposed
  covariates and the stacked joined rows), the whole of each weight matrix and bias column, and writes back columns
  `8192 t … 8192 t + 8191` of each output.  What it writes is the restriction to those columns of one function of the
  arrays the region finds — the column-stored stack of `RoiMaps` — and the sixteen blocks cover the output, so each
  output array ends holding that function.
-/
import proofs.«153709_j72249939853425_2_alg».proof.Proof.Gen.KernelIdeal.Value
import proofs.«153709_j72249939853425_2_alg».proof.Proof.KernelPayloads
import proofs.«153709_j72249939853425_2_alg».proof.Proof.RoiMaps

noncomputable section

namespace Cert.KernelIdeal.Blocks

open Cert.KernelIdeal Cert.KernelIdeal.Gen Cert.RoiMaps
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the sixteen grid points: the two sample windows and the two output windows
    sit at block `(0, t)`; the weight and bias windows stay at block `(0, 0)`. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-! ## Output window 6 -/

/-- WHAT POINT `t` WRITES BACK to output window 6 is block `t` of the column-stored stack of the five-wide weights over the
    arrays the region finds: the body's store at `(p, q)` is row `p` of the weights against column `q` of the point's
    sample block, which is column `8192 t + q` of the sample array, plus the bias column at `p`. -/
theorem flushed6_eq (c : Dev nD) (t : Fin cfg0.N) :
    (dats m 0 c).flushed 6 t = ((cfg0.win 6).blk t).view.read (Elt Ideal)
      (byColumns (V m c main_arg2 : S148x5.Idx → EReal) (V m c main_v1 : S5x131072.Idx → EReal) (V m c main_v3 : S148x1.Idx → EReal)) := by
  rw [Value.flushed6]
  unfold out0_6
  rw [View.canon_unit_zero hz]
  simp only [View.ld_unit_zero (S := S5x8192) hz, View.ld_unit_zero (S := S148x5) hz, View.ld_unit_zero (S := S148x1) hz]
  obtain ⟨e00, e01, e10, e11, e20, e21, e30, e31, e40, e41, e50, e51, e60, e61, e70, e71⟩ := idx_facts t
  have hN : cfg0.N = 16 := N_0
  have ht : t.val < 16 := hN ▸ t.isLt
  refine funext fun (j : S148x8192.Idx) => ?_
  obtain ⟨p, q, rfl⟩ : ∃ (p : Fin 148) (q : Fin 8192), j = ix2 p q := ⟨j 0, j 1, eq_ix2 j⟩
  have hp : p.val < 148 := p.isLt
  have hq : q.val < 8192 := q.isLt
  -- the array index of the block's entry `(p, q)`
  have he : ((cfg0.win 6).blk t).view.emb (ix2 p q) = ix2 p (⟨t.val * 8192 + q.val, by omega⟩ : Fin 131072) := by
    funext a; apply Fin.ext
    match a with
    | ⟨0, _⟩ => show win0_6.index t (0 : Fin 2) * 148 + 1 * p.val = p.val; omega
    | ⟨1, _⟩ => show win0_6.index t (1 : Fin 2) * 8192 + 1 * q.val = t.val * 8192 + q.val; omega
  show k0_pay1 (iblk m c 0 t) (iblk m c 2 t) (iblk m c 3 t) (ix2 p q)
    = byColumns (V m c main_arg2 : S148x5.Idx → EReal) (V m c main_v1 : S5x131072.Idx → EReal) (V m c main_v3 : S148x1.Idx → EReal)
        (((cfg0.win 6).blk t).view.emb (ix2 p q))
  rw [he]
  refine (Payloads.pay1_apply (iblk m c 0 t) (iblk m c 2 t) (iblk m c 3 t) p q).trans ?_
  show _ = byColumnsAt (V m c main_arg2 : S148x5.Idx → EReal) (V m c main_v1 : S5x131072.Idx → EReal) (V m c main_v3 : S148x1.Idx → EReal)
    p (⟨t.val * 8192 + q.val, by omega⟩ : Fin 131072)
  unfold byColumnsAt
  -- the weights' window holds the whole matrix
  have hW : ∀ k : Fin 5, (iblk m c 2 t : Vec Ideal S148x5 .f32) (ix2 p k) = (V m c main_arg2 : S148x5.Idx → EReal) (ix2 p k) := fun k => by
    have hk : k.val < 5 := k.isLt
    show V m c main_arg2 (((cfg0.win 2).blk t).view.emb (ix2 p k)) = V m c main_arg2 (ix2 p k)
    have e : ((cfg0.win 2).blk t).view.emb (ix2 p k) = ix2 p k := by
      funext a; apply Fin.ext
      match a with
      | ⟨0, _⟩ => show win0_2.index t (0 : Fin 2) * 148 + 1 * p.val = p.val; omega
      | ⟨1, _⟩ => show win0_2.index t (1 : Fin 2) * 5 + 1 * k.val = k.val; omega
    rw [e]
  -- the sample window's block `t` is columns `8192 t … 8192 t + 8191` of the sample array
  have hS : ∀ k : Fin 5, (iblk m c 0 t : Vec Ideal S5x8192 .f32) (ix2 k q)
      = (V m c main_v1 : S5x131072.Idx → EReal) (ix2 k (⟨t.val * 8192 + q.val, by omega⟩ : Fin 131072)) := fun k => by
    have hk : k.val < 5 := k.isLt
    show V m c main_v1 (((cfg0.win 0).blk t).view.emb (ix2 k q)) = V m c main_v1 (ix2 k (⟨t.val * 8192 + q.val, by omega⟩ : Fin 131072))
    have e : ((cfg0.win 0).blk t).view.emb (ix2 k q) = ix2 k (⟨t.val * 8192 + q.val, by omega⟩ : Fin 131072) := by
      funext a; apply Fin.ext
      match a with
      | ⟨0, _⟩ => show win0_0.index t (0 : Fin 2) * 5 + 1 * k.val = k.val; omega
      | ⟨1, _⟩ => show win0_0.index t (1 : Fin 2) * 8192 + 1 * q.val = t.val * 8192 + q.val; omega
    rw [e]
  -- the bias window holds the whole column
  have hB : (iblk m c 3 t : Vec Ideal S148x1 .f32) (ix2 p (0 : Fin 1)) = (V m c main_v3 : S148x1.Idx → EReal) (ix2 p (0 : Fin 1)) := by
    show V m c main_v3 (((cfg0.win 3).blk t).view.emb (ix2 p (0 : Fin 1))) = V m c main_v3 (ix2 p (0 : Fin 1))
    have e : ((cfg0.win 3).blk t).view.emb (ix2 p (0 : Fin 1)) = ix2 p (0 : Fin 1) := by
      funext a; apply Fin.ext
      match a with
      | ⟨0, _⟩ => show win0_3.index t (0 : Fin 2) * 148 + 1 * p.val = p.val; omega
      | ⟨1, _⟩ => show win0_3.index t (1 : Fin 2) * 1 + 1 * 0 = 0; omega
    rw [e]
  exact congrArg₂ (· + ·) (Finset.sum_congr rfl fun k _ => congrArg₂ (· * ·) (hW k) (hS k)) hB

/-- An index of the output array is in point `t`'s block iff each coordinate is in the block's range on its axis. -/
theorem mem_blk6 (t : Fin cfg0.N) (i : S148x131072.Idx) :
    i ∈ ((cfg0.win 6).blk t).view.set ↔ ∀ a : Fin 2, win0_6.index t a * S148x8192.size a ≤ (i a).val ∧ (i a).val < win0_6.index t a * S148x8192.size a + S148x8192.size a := by
  show i ∈ ((View.whole main_v5_0).slice (win0_6.rect t)).set ↔ _
  rw [View.set_slice_whole, Rect.mem_set_unit]
  exact Iff.rfl

/-- Every index of the output array is in some point's block: column `n` is in block `n / 8192`. -/
theorem cover6 (i : S148x131072.Idx) : ∃ t : Fin cfg0.N, (cfg0.win 6).flush t = true ∧ i ∈ ((cfg0.win 6).blk t).view.set := by
  have hi0 : (i 0).val < 148 := (i 0).isLt
  have hi1 : (i 1).val < 131072 := (i 1).isLt
  have hN : cfg0.N = 16 := N_0
  obtain ⟨t, ht⟩ : ∃ t : Fin cfg0.N, t.val = (i 1).val / 8192 := ⟨⟨(i 1).val / 8192, by omega⟩, rfl⟩
  obtain ⟨e00, e01, e10, e11, e20, e21, e30, e31, e40, e41, e50, e51, e60, e61, e70, e71⟩ := idx_facts t
  refine ⟨t, flush0_6 t, ?_⟩
  rw [mem_blk6]
  intro a
  match a with
  | ⟨0, _⟩ => show win0_6.index t (0 : Fin 2) * 148 ≤ (i 0).val ∧ (i 0).val < win0_6.index t (0 : Fin 2) * 148 + 148; omega
  | ⟨1, _⟩ => show win0_6.index t (1 : Fin 2) * 8192 ≤ (i 1).val ∧ (i 1).val < win0_6.index t (1 : Fin 2) * 8192 + 8192; omega

/-- THE ARRAY after the run: the column-stored stack of the five-wide weights over the arrays the region finds. -/
theorem final6 (c : Dev nD) : (dats m 0 c).arrAt 6 cfg0.N
    = byColumns (V m c main_arg2 : S148x5.Idx → EReal) (V m c main_v1 : S5x131072.Idx → EReal) (V m c main_v3 : S148x1.Idx → EReal) :=
  (dats m 0 c).arrAt_eq_of_cover 6 _ (fun t _ => flushed6_eq m c t) cover6

/-! ## Output window 7 -/

/-- WHAT POINT `t` WRITES BACK to output window 7 is block `t` of the column-stored stack of the six-wide weights over the
    arrays the region finds: the body's store at `(p, q)` is row `p` of the weights against column `q` of the point's
    sample block, which is column `8192 t + q` of the sample array, plus the bias column at `p`. -/
theorem flushed7_eq (c : Dev nD) (t : Fin cfg0.N) :
    (dats m 0 c).flushed 7 t = ((cfg0.win 7).blk t).view.read (Elt Ideal)
      (byColumns (V m c main_arg4 : S148x6.Idx → EReal) (V m c main_v2 : S6x131072.Idx → EReal) (V m c main_v4 : S148x1.Idx → EReal)) := by
  rw [Value.flushed7]
  unfold out0_7
  rw [View.canon_unit_zero hz]
  simp only [View.ld_unit_zero (S := S6x8192) hz, View.ld_unit_zero (S := S148x6) hz, View.ld_unit_zero (S := S148x1) hz]
  obtain ⟨e00, e01, e10, e11, e20, e21, e30, e31, e40, e41, e50, e51, e60, e61, e70, e71⟩ := idx_facts t
  have hN : cfg0.N = 16 := N_0
  have ht : t.val < 16 := hN ▸ t.isLt
  refine funext fun (j : S148x8192.Idx) => ?_
  obtain ⟨p, q, rfl⟩ : ∃ (p : Fin 148) (q : Fin 8192), j = ix2 p q := ⟨j 0, j 1, eq_ix2 j⟩
  have hp : p.val < 148 := p.isLt
  have hq : q.val < 8192 := q.isLt
  -- the array index of the block's entry `(p, q)`
  have he : ((cfg0.win 7).blk t).view.emb (ix2 p q) = ix2 p (⟨t.val * 8192 + q.val, by omega⟩ : Fin 131072) := by
    funext a; apply Fin.ext
    match a with
    | ⟨0, _⟩ => show win0_7.index t (0 : Fin 2) * 148 + 1 * p.val = p.val; omega
    | ⟨1, _⟩ => show win0_7.index t (1 : Fin 2) * 8192 + 1 * q.val = t.val * 8192 + q.val; omega
  show k0_pay2 (iblk m c 1 t) (iblk m c 4 t) (iblk m c 5 t) (ix2 p q)
    = byColumns (V m c main_arg4 : S148x6.Idx → EReal) (V m c main_v2 : S6x131072.Idx → EReal) (V m c main_v4 : S148x1.Idx → EReal)
        (((cfg0.win 7).blk t).view.emb (ix2 p q))
  rw [he]
  refine (Payloads.pay2_apply (iblk m c 1 t) (iblk m c 4 t) (iblk m c 5 t) p q).trans ?_
  show _ = byColumnsAt (V m c main_arg4 : S148x6.Idx → EReal) (V m c main_v2 : S6x131072.Idx → EReal) (V m c main_v4 : S148x1.Idx → EReal)
    p (⟨t.val * 8192 + q.val, by omega⟩ : Fin 131072)
  unfold byColumnsAt
  -- the weights' window holds the whole matrix
  have hW : ∀ k : Fin 6, (iblk m c 4 t : Vec Ideal S148x6 .f32) (ix2 p k) = (V m c main_arg4 : S148x6.Idx → EReal) (ix2 p k) := fun k => by
    have hk : k.val < 6 := k.isLt
    show V m c main_arg4 (((cfg0.win 4).blk t).view.emb (ix2 p k)) = V m c main_arg4 (ix2 p k)
    have e : ((cfg0.win 4).blk t).view.emb (ix2 p k) = ix2 p k := by
      funext a; apply Fin.ext
      match a with
      | ⟨0, _⟩ => show win0_4.index t (0 : Fin 2) * 148 + 1 * p.val = p.val; omega
      | ⟨1, _⟩ => show win0_4.index t (1 : Fin 2) * 6 + 1 * k.val = k.val; omega
    rw [e]
  -- the sample window's block `t` is columns `8192 t … 8192 t + 8191` of the sample array
  have hS : ∀ k : Fin 6, (iblk m c 1 t : Vec Ideal S6x8192 .f32) (ix2 k q)
      = (V m c main_v2 : S6x131072.Idx → EReal) (ix2 k (⟨t.val * 8192 + q.val, by omega⟩ : Fin 131072)) := fun k => by
    have hk : k.val < 6 := k.isLt
    show V m c main_v2 (((cfg0.win 1).blk t).view.emb (ix2 k q)) = V m c main_v2 (ix2 k (⟨t.val * 8192 + q.val, by omega⟩ : Fin 131072))
    have e : ((cfg0.win 1).blk t).view.emb (ix2 k q) = ix2 k (⟨t.val * 8192 + q.val, by omega⟩ : Fin 131072) := by
      funext a; apply Fin.ext
      match a with
      | ⟨0, _⟩ => show win0_1.index t (0 : Fin 2) * 6 + 1 * k.val = k.val; omega
      | ⟨1, _⟩ => show win0_1.index t (1 : Fin 2) * 8192 + 1 * q.val = t.val * 8192 + q.val; omega
    rw [e]
  -- the bias window holds the whole column
  have hB : (iblk m c 5 t : Vec Ideal S148x1 .f32) (ix2 p (0 : Fin 1)) = (V m c main_v4 : S148x1.Idx → EReal) (ix2 p (0 : Fin 1)) := by
    show V m c main_v4 (((cfg0.win 5).blk t).view.emb (ix2 p (0 : Fin 1))) = V m c main_v4 (ix2 p (0 : Fin 1))
    have e : ((cfg0.win 5).blk t).view.emb (ix2 p (0 : Fin 1)) = ix2 p (0 : Fin 1) := by
      funext a; apply Fin.ext
      match a with
      | ⟨0, _⟩ => show win0_5.index t (0 : Fin 2) * 148 + 1 * p.val = p.val; omega
      | ⟨1, _⟩ => show win0_5.index t (1 : Fin 2) * 1 + 1 * 0 = 0; omega
    rw [e]
  exact congrArg₂ (· + ·) (Finset.sum_congr rfl fun k _ => congrArg₂ (· * ·) (hW k) (hS k)) hB

/-- An index of the output array is in point `t`'s block iff each coordinate is in the block's range on its axis. -/
theorem mem_blk7 (t : Fin cfg0.N) (i : S148x131072.Idx) :
    i ∈ ((cfg0.win 7).blk t).view.set ↔ ∀ a : Fin 2, win0_7.index t a * S148x8192.size a ≤ (i a).val ∧ (i a).val < win0_7.index t a * S148x8192.size a + S148x8192.size a := by
  show i ∈ ((View.whole main_v5_1).slice (win0_7.rect t)).set ↔ _
  rw [View.set_slice_whole, Rect.mem_set_unit]
  exact Iff.rfl

/-- Every index of the output array is in some point's block: column `n` is in block `n / 8192`. -/
theorem cover7 (i : S148x131072.Idx) : ∃ t : Fin cfg0.N, (cfg0.win 7).flush t = true ∧ i ∈ ((cfg0.win 7).blk t).view.set := by
  have hi0 : (i 0).val < 148 := (i 0).isLt
  have hi1 : (i 1).val < 131072 := (i 1).isLt
  have hN : cfg0.N = 16 := N_0
  obtain ⟨t, ht⟩ : ∃ t : Fin cfg0.N, t.val = (i 1).val / 8192 := ⟨⟨(i 1).val / 8192, by omega⟩, rfl⟩
  obtain ⟨e00, e01, e10, e11, e20, e21, e30, e31, e40, e41, e50, e51, e60, e61, e70, e71⟩ := idx_facts t
  refine ⟨t, flush0_7 t, ?_⟩
  rw [mem_blk7]
  intro a
  match a with
  | ⟨0, _⟩ => show win0_7.index t (0 : Fin 2) * 148 ≤ (i 0).val ∧ (i 0).val < win0_7.index t (0 : Fin 2) * 148 + 148; omega
  | ⟨1, _⟩ => show win0_7.index t (1 : Fin 2) * 8192 ≤ (i 1).val ∧ (i 1).val < win0_7.index t (1 : Fin 2) * 8192 + 8192; omega

/-- THE ARRAY after the run: the column-stored stack of the six-wide weights over the arrays the region finds. -/
theorem final7 (c : Dev nD) : (dats m 0 c).arrAt 7 cfg0.N
    = byColumns (V m c main_arg4 : S148x6.Idx → EReal) (V m c main_v2 : S6x131072.Idx → EReal) (V m c main_v4 : S148x1.Idx → EReal) :=
  (dats m 0 c).arrAt_eq_of_cover 7 _ (fun t _ => flushed7_eq m c t) cover7

end Cert.KernelIdeal.Blocks

end
-- ==== Proof.KernelHost.lean ====
/-
  What the kernel's region finds in the arrays the host operations wrote before it.

  The covariates arrive transposed, `[5, N]`: entry `(k, n)` is covariate `k` of sample `n`.  The joined rows arrive
  as the concatenation, along the first axis, of the transposed exposure `[1, N]` and the transposed covariates
  `[5, N]`: entry `(d, n)` is the exposure of sample `n` for `d = 0` and covariate `d - 1` after it — entry `d` of
  sample `n`'s joined row.  Each bias arrives cast to a column `[148, 1]`: entry `(r, 0)` is the bias of map `r`.
-/
import proofs.«153709_j72249939853425_2_alg».proof.Proof.Gen.KernelIdeal.Frame
import proofs.«153709_j72249939853425_2_alg».proof.Proof.RoiMaps
import proofs.«153709_j72249939853425_2_alg».proof.Proof.LibColumnLayout
import Idealize.ShloMosaic.Lib.StableHlo.Run
import Idealize.ShloMosaic.Lib.ValueLayout
import Idealize.ShloMosaic.Lib.Pipeline.Value

noncomputable section

namespace Cert.KernelIdeal.HostSide

open Cert.KernelIdeal Cert.KernelIdeal.Gen Cert.RoiMaps
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## The arrays as terms of the arguments -/

/-- The covariates, transposed. -/
theorem covariatesT (c : Dev nD) :
    (V m c main_v1 : S5x131072.Idx → EReal)
      = transpose S5x131072 [1, 0] (m ((c : Thread nD τ).loc main_arg1)) transposes_S131072x5_S5x131072_1_0 := by
  dsimp only [Gen.V, Gen.hostOps0]; after_results

/-- The transposed exposure on top of the transposed covariates. -/
theorem joinedT (c : Dev nD) :
    (V m c main_v2 : S6x131072.Idx → EReal)
      = concatenate S6x131072 0
          [⟨S1x131072, transpose S1x131072 [1, 0] (m ((c : Thread nD τ).loc main_arg0)) transposes_S131072x1_S1x131072_1_0⟩,
           ⟨S5x131072, transpose S5x131072 [1, 0] (m ((c : Thread nD τ).loc main_arg1)) transposes_S131072x5_S5x131072_1_0⟩]
          concatenates_S1x131072_S5x131072_S6x131072_d0 := by
  dsimp only [Gen.V, Gen.hostOps0]; after_results

/-- The restricted stack's bias as a column. -/
theorem biasColR (c : Dev nD) :
    (V m c main_v3 : S148x1.Idx → EReal) = shapeCast S148x1 (m ((c : Thread nD τ).loc main_arg3)) shapeCasts_S148_S148x1 := by
  dsimp only [Gen.V, Gen.hostOps0]; after_results; rfl

/-- The full stack's bias as a column. -/
theorem biasColF (c : Dev nD) :
    (V m c main_v4 : S148x1.Idx → EReal) = shapeCast S148x1 (m ((c : Thread nD τ).loc main_arg5)) shapeCasts_S148_S148x1 := by
  dsimp only [Gen.V, Gen.hostOps0]; after_results; rfl

/-! ## The arrays at an index -/

/-- Entry `(k, n)` of the transposed covariates is covariate `k` of sample `n`. -/
theorem covariatesT_apply (c : Dev nD) (k : Fin 5) (n : Fin 131072) :
    (V m c main_v1 : S5x131072.Idx → EReal) (ix2 k n) = (m ((c : Thread nD τ).loc main_arg1) : S131072x5.Idx → EReal) (ix2 n k) := by
  rw [covariatesT]
  exact transpose_ix2_apply _ _ k n

/-- Entry `(d, n)` of the stacked array is entry `d` of sample `n`'s joined row. -/
theorem joinedT_apply (c : Dev nD) (d : Fin 6) (n : Fin 131072) :
    (V m c main_v2 : S6x131072.Idx → EReal) (ix2 d n)
      = joined (m ((c : Thread nD τ).loc main_arg0)) (m ((c : Thread nD τ).loc main_arg1)) n d := by
  rw [joinedT]
  unfold joined
  by_cases h : d.val < 1
  · rw [dif_pos h]
    refine (concatenate_pair_apply_left (t := S6x131072) (s₁ := S1x131072) (s₂ := S5x131072) (0 : Fin 2) _ _ concatenates_S1x131072_S5x131072_S6x131072_d0 (ix2 d n) rfl
      (ix2 (⟨d.val, h⟩ : Fin 1) n) (fun b => match b with | ⟨0, _⟩ => rfl | ⟨1, _⟩ => rfl)).trans ?_
    exact transpose_ix2_apply _ _ (⟨d.val, h⟩ : Fin 1) n
  · rw [dif_neg h]
    refine (concatenate_pair_apply_right (t := S6x131072) (s₁ := S1x131072) (s₂ := S5x131072) (0 : Fin 2) _ _ concatenates_S1x131072_S5x131072_S6x131072_d0 (ix2 d n) rfl rfl
      (ix2 (⟨d.val - 1, by omega⟩ : Fin 5) n)
      (fun b hb => match b, hb with | ⟨0, _⟩, hb => absurd rfl hb | ⟨1, _⟩, _ => rfl)
      (by show d.val - 1 + 1 = d.val; omega)).trans ?_
    exact transpose_ix2_apply _ _ (⟨d.val - 1, by omega⟩ : Fin 5) n

/-- Entry `(r, 0)` of the restricted stack's bias column is the bias of map `r`. -/
theorem biasColR_apply (c : Dev nD) (r : Fin 148) :
    (V m c main_v3 : S148x1.Idx → EReal) (ix2 r (0 : Fin 1)) = (m ((c : Thread nD τ).loc main_arg3) : S148.Idx → EReal) (ix1 r) := by
  rw [biasColR]
  exact PhysLoss.shapeCast_a_a1_apply _ _ r 0

/-- Entry `(r, 0)` of the full stack's bias column is the bias of map `r`. -/
theorem biasColF_apply (c : Dev nD) (r : Fin 148) :
    (V m c main_v4 : S148x1.Idx → EReal) (ix2 r (0 : Fin 1)) = (m ((c : Thread nD τ).loc main_arg5) : S148.Idx → EReal) (ix1 r) := by
  rw [biasColF]
  exact PhysLoss.shapeCast_a_a1_apply _ _ r 0

/-! ## The column-stored stacks over the region's arrays are the two stacks of the arguments -/

/-- Over what the region finds, the column-stored stack of the five-wide weights is the restricted stack. -/
theorem restricted_of_region (c : Dev nD) :
    byColumns (V m c main_arg2 : S148x5.Idx → EReal) (V m c main_v1 : S5x131072.Idx → EReal) (V m c main_v3 : S148x1.Idx → EReal)
      = restricted (m ((c : Thread nD τ).loc main_arg1)) (m ((c : Thread nD τ).loc main_arg2)) (m ((c : Thread nD τ).loc main_arg3)) := by
  rw [V_main_arg2]
  exact byColumns_restricted _ _ _ _ _ (covariatesT_apply m c) (biasColR_apply m c)

/-- Over what the region finds, the column-stored stack of the six-wide weights is the full stack. -/
theorem full_of_region (c : Dev nD) :
    byColumns (V m c main_arg4 : S148x6.Idx → EReal) (V m c main_v2 : S6x131072.Idx → EReal) (V m c main_v4 : S148x1.Idx → EReal)
      = full (m ((c : Thread nD τ).loc main_arg0)) (m ((c : Thread nD τ).loc main_arg1)) (m ((c : Thread nD τ).loc main_arg4))
          (m ((c : Thread nD τ).loc main_arg5)) := by
  rw [V_main_arg4]
  exact byColumns_full _ _ _ _ _ _ (joinedT_apply m c) (biasColF_apply m c)

end Cert.KernelIdeal.HostSide

end
-- ==== Proof.KernelValue.lean ====
/-
  The kernel's run, read: its two result arrays are the restricted and the full stack of the arguments.

  After the run each output array holds the column-stored stack over the arrays the region found (the sixteen column
  blocks cover it), and over those arrays — the transposed covariates, the stacked joined rows, the bias columns —
  the column-stored stack is the stack of `RoiMaps` over the arguments themselves.
-/
import proofs.«153709_j72249939853425_2_alg».proof.Proof.KernelBlocks
import proofs.«153709_j72249939853425_2_alg».proof.Proof.KernelHost

noncomputable section

namespace Cert.KernelIdeal.Stacks

open Cert.KernelIdeal Cert.KernelIdeal.Gen Cert.RoiMaps
open Idealize.ShloMosaic Idealize.ShloMosaic.TcCoe Idealize.SL.Sem

variable (m : (ℓ : Loc nD τ sig) → Buf (Elt Ideal) ℓ) (ρ : Dev nD → PrngReg)

/-- Every weakly fair execution of the kernel's program terminates with the first result at the restricted stack and
    the second at the full stack of the argument arrays, the arguments unchanged. -/
theorem run : θ_run defs (onTc (τ := τ) (main (F := Ideal))) ⟨m, fun _ => 0, ρ⟩ fun r => ∀ c : Dev nD,
      r.2.mem ((c : Thread nD τ).loc main_v5_0)
        = restricted (m ((c : Thread nD τ).loc main_arg1)) (m ((c : Thread nD τ).loc main_arg2)) (m ((c : Thread nD τ).loc main_arg3))
      ∧ r.2.mem ((c : Thread nD τ).loc main_v5_1)
        = full (m ((c : Thread nD τ).loc main_arg0)) (m ((c : Thread nD τ).loc main_arg1)) (m ((c : Thread nD τ).loc main_arg4))
            (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
      ⟨(h c).1.trans ((Blocks.final6 m c).trans (HostSide.restricted_of_region m c)),
       (h c).2.1.trans ((Blocks.final7 m c).trans (HostSide.full_of_region m c)),
       (h c).2.2⟩)
    (Cert.KernelIdeal.Value.run_blocks m ρ)

end Cert.KernelIdeal.Stacks

end
-- ==== Proof.RefIsRoiMaps.lean ====
/-
  The reference computes the two stacks of `RoiMaps`, index by index.

  Its first result is a contraction of the weights `Wr` with the covariates `Z` over their shared second axis, plus
  the bias broadcast along the samples: entry `(r, n)` is the sum over `k` of `Wr (r, k) * Z (n, k)`, plus `br r`.
  Its second result contracts `Wf` with the concatenation of `X` and `Z` along their second axis, whose entry
  `(n, d)` is `X (n, 0)` for `d = 0` and `Z (n, d - 1)` after it: sample `n`'s joined row.
-/
import proofs.«153709_j72249939853425_2_alg».proof.Proof.Gen.ReferenceIdeal.Read
import proofs.«153709_j72249939853425_2_alg».proof.Proof.RoiMaps

noncomputable section

namespace Cert.ReferenceIdeal.IsRoiMaps

open Cert.ReferenceIdeal Cert.ReferenceIdeal.Gen Cert.ReferenceIdeal.Read Cert.RoiMaps
open Idealize.ShloMosaic Idealize.ShloMosaic.ValueIdx

/-- The first contraction's left operand index at output `(r, n)`: row `r` of the weights, entry `k`. -/
theorem lidx_v1 (r : Fin 148) (n : Fin 131072) (k : Fin 5) : lidx_main_v1 (ix2 r n) k = ix2 r k :=
  funext fun a => Fin.ext (by match a with | ⟨0, _⟩ => rfl | ⟨1, _⟩ => rfl)

/-- The first contraction's right operand index: sample `n`'s covariate `k`. -/
theorem ridx_v1 (r : Fin 148) (n : Fin 131072) (k : Fin 5) : ridx_main_v1 (ix2 r n) k = ix2 n k :=
  funext fun a => Fin.ext (by match a with | ⟨0, _⟩ => rfl | ⟨1, _⟩ => rfl)

/-- The second contraction's left operand index. -/
theorem lidx_v5 (r : Fin 148) (n : Fin 131072) (k : Fin 6) : lidx_main_v5 (ix2 r n) k = ix2 r k :=
  funext fun a => Fin.ext (by match a with | ⟨0, _⟩ => rfl | ⟨1, _⟩ => rfl)

/-- The second contraction's right operand index: entry `k` of sample `n`'s joined row. -/
theorem ridx_v5 (r : Fin 148) (n : Fin 131072) (k : Fin 6) : ridx_main_v5 (ix2 r n) k = ix2 n k :=
  funext fun a => Fin.ext (by match a with | ⟨0, _⟩ => rfl | ⟨1, _⟩ => rfl)

/-- The bias broadcast twice reads the bias at the output's row. -/
theorem bias_v3 (r : Fin 148) (n : Fin 131072) : idx_main_v2 (idx_main_v3 (ix2 r n)) = ix1 r :=
  funext fun a => Fin.ext (by match a with | ⟨0, _⟩ => rfl)

theorem bias_v7 (r : Fin 148) (n : Fin 131072) : idx_main_v6 (idx_main_v7 (ix2 r n)) = ix1 r :=
  funext fun a => Fin.ext (by match a with | ⟨0, _⟩ => rfl)

/-- The concatenation of `X` and `Z` along the second axis holds each sample's joined row. -/
theorem concat_joined (x0 : (⟨S131072x1, .f32⟩ : BufTy).Contents (Elt Ideal)) (x1 : (⟨S131072x5, .f32⟩ : BufTy).Contents (Elt Ideal))
    (n : Fin 131072) (d : Fin 6) : val_main_v0 (F := Ideal) x0 x1 (ix2 n d) = joined x0 x1 n d := by
  unfold val_main_v0 joined
  by_cases h : d.val < 1
  · rw [dif_pos h]
    exact concatenate_pair_apply_left (1 : Fin 2) x0 x1 concatenates_S131072x1_S131072x5_S131072x6_d1 (ix2 n d) rfl
      (ix2 n ⟨d.val, h⟩) (fun b => match b with | ⟨0, _⟩ => rfl | ⟨1, _⟩ => rfl)
  · rw [dif_neg h]
    exact concatenate_pair_apply_right (1 : Fin 2) x0 x1 concatenates_S131072x1_S131072x5_S131072x6_d1 (ix2 n d) rfl rfl
      (ix2 n ⟨d.val - 1, by omega⟩)
      (fun b hb => match b, hb with | ⟨0, _⟩, _ => rfl | ⟨1, _⟩, hb => absurd rfl hb)
      (by show d.val - 1 + 1 = d.val; omega)

/-- The reference's first result is the restricted stack. -/
theorem restricted_eq (x1 : (⟨S131072x5, .f32⟩ : BufTy).Contents (Elt Ideal)) (x2 : (⟨S148x5, .f32⟩ : BufTy).Contents (Elt Ideal))
    (x3 : (⟨S148, .f32⟩ : BufTy).Contents (Elt Ideal)) : val_main_v4 (F := Ideal) x1 x2 x3 = restricted x1 x2 x3 := by
  funext i
  obtain ⟨r, n, rfl⟩ : ∃ (r : Fin 148) (n : Fin 131072), i = ix2 r n := ⟨i 0, i 1, eq_ix2 i⟩
  rw [val_main_v4_apply, val_main_v1_apply, val_main_v3_apply, val_main_v2_apply, bias_v3]
  simp only [lidx_v1, ridx_v1]
  rfl

/-- The reference's second result is the full stack. -/
theorem full_eq (x0 : (⟨S131072x1, .f32⟩ : BufTy).Contents (Elt Ideal)) (x1 : (⟨S131072x5, .f32⟩ : BufTy).Contents (Elt Ideal))
    (x4 : (⟨S148x6, .f32⟩ : BufTy).Contents (Elt Ideal)) (x5 : (⟨S148, .f32⟩ : BufTy).Contents (Elt Ideal)) :
    val_main_v8 (F := Ideal) x0 x1 x4 x5 = full x0 x1 x4 x5 := by
  funext i
  obtain ⟨r, n, rfl⟩ : ∃ (r : Fin 148) (n : Fin 131072), i = ix2 r n := ⟨i 0, i 1, eq_ix2 i⟩
  rw [val_main_v8_apply, val_main_v5_apply, val_main_v7_apply, val_main_v6_apply, bias_v7]
  simp only [lidx_v5, ridx_v5, concat_joined]
  rfl

end Cert.ReferenceIdeal.IsRoiMaps

end
-- ==== Proof.lean ====
/-
  The kernel and its reference compute the same two arrays over the extended reals.

  A stack of 148 affine maps is applied to each of 131072 samples, twice: the restricted stack reads a sample's five
  covariates, the full stack its joined row of one exposure and five covariates (`Proof/RoiMaps.lean`).  The
  reference contracts the weights with the samples over the sample's own axis and adds the bias broadcast along the
  samples (`Proof/RefIsRoiMaps.lean`).  The kernel first transposes the samples, so that a column is a sample, stacks
  the transposed exposure on the transposed covariates, and casts each bias to a column (`Proof/KernelHost.lean`);
  then, sixteen times, it multiplies the weights into a block of 8192 columns, adds the bias column along the lanes,
  and writes the block back (`Proof/KernelPayloads.lean`, `Proof/KernelBlocks.lean`).  Entry `(r, n)` of either
  program's result is the same finite sum of the same products in the extended reals plus the same bias, so no law
  that fails at an infinity is used and the precondition is never opened.  Rounding the operands of a product to a
  narrower format is the identity on the extended reals, and the ideal pass rewrote nothing, so the kernel's
  idealization is its own text.
-/
import proofs.«153709_j72249939853425_2_alg».proof.Defs
import proofs.«153709_j72249939853425_2_alg».proof.Proof.Gen.Kernel
import proofs.«153709_j72249939853425_2_alg».proof.Proof.Gen.Kernel.Skeleton
import proofs.«153709_j72249939853425_2_alg».proof.Proof.Gen.Kernel.Launch
import proofs.«153709_j72249939853425_2_alg».proof.Proof.Gen.Kernel.Points
import proofs.«153709_j72249939853425_2_alg».proof.Proof.Gen.Kernel.Frame
import proofs.«153709_j72249939853425_2_alg».proof.Proof.Gen.KernelIdeal
import proofs.«153709_j72249939853425_2_alg».proof.Proof.Gen.KernelIdeal.Skeleton
import proofs.«153709_j72249939853425_2_alg».proof.Proof.Gen.KernelIdeal.Launch
import proofs.«153709_j72249939853425_2_alg».proof.Proof.Gen.KernelIdeal.Points
import proofs.«153709_j72249939853425_2_alg».proof.Proof.Gen.KernelIdeal.Frame
import proofs.«153709_j72249939853425_2_alg».proof.Proof.Gen.ReferenceIdeal
import proofs.«153709_j72249939853425_2_alg».proof.Proof.Gen.Pre_finite_inputs
import proofs.«153709_j72249939853425_2_alg».proof.Proof.Gen.KernelIdeal.Value
import proofs.«153709_j72249939853425_2_alg».proof.Proof.Gen.ReferenceIdeal.Run
import proofs.«153709_j72249939853425_2_alg».proof.Proof.Gen.ReferenceIdeal.Read
import proofs.«153709_j72249939853425_2_alg».proof.Proof.KernelValue
import proofs.«153709_j72249939853425_2_alg».proof.Proof.RefIsRoiMaps
import Idealize.ShloMosaic.Adequacy
import Idealize.ShloMosaic.Init

noncomputable section

namespace Cert.Proof

open Idealize.ShloMosaic Idealize.ShloMosaic.TcCoe Idealize.SL.Sem Cert.RoiMaps

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the restricted stack in their first result and the full stack in their second, of
    arguments that agree. -/
theorem algebraic : Cert.algebraic_KernelIdeal_ReferenceIdeal := by
  intro m ρ m' ρ' _ hagree
  refine ⟨fun c => restricted (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun c => full (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.Stacks.run m ρ, ?_⟩
  refine (θ_run Cert.ReferenceIdeal.defs _ _).mono (fun _ h c => ?_) (Cert.ReferenceIdeal.Value.run (F := Ideal) m' ρ')
  obtain ⟨h0, h1, h2, h3, h4, h5⟩ := hagree c
  refine ⟨(h c).1.trans ?_, (h c).2.1.trans ?_, (h c).2.2⟩
  · rw [Cert.ReferenceIdeal.Read.val_main_v4_eq, Cert.ReferenceIdeal.IsRoiMaps.restricted_eq, h1, h2, h3]
  · rw [Cert.ReferenceIdeal.Read.val_main_v8_eq, Cert.ReferenceIdeal.IsRoiMaps.full_eq, h0, h1, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
